-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 103
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S64x64, .f32⟩
  | .hbm, ⟨89, _⟩ => ⟨S100000x1, .i32⟩
  | .hbm, ⟨90, _⟩ => ⟨S64x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x64, .f32⟩
  | .hbm, ⟨102, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S64x64, .f32⟩
  | .hbm, ⟨94, _⟩ => ⟨S100000x1, .i32⟩
  | .hbm, ⟨95, _⟩ => ⟨S64x64, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x64, .f32⟩
  | .hbm, ⟨107, _⟩ => ⟨S64x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Stages.lean ====
/-
  The two-layer graph convolution with mean pooling, stage by stage, on the extended reals.

  From the edge list `e` (2 × E) the endpoints are its two rows, each followed by the N self loops `0 … N-1`; the
  in-degree of a node (self loop included) is the sum of ones over the edges that end in it; `dinv` is
  `deg ^ (-1/2)` where the degree is positive and `0` elsewhere; an edge's weight is the product of `dinv` at its two
  endpoints. A layer multiplies the features by a weight matrix, gathers the product's rows at the edges' sources,
  scales each by its edge's weight, sums them into the edges' targets and adds a bias row; the first layer is followed
  by `max(·, 0)`. The pooled output sums the nodes' rows per graph and divides by `max(count, 1)`.
  Negative indices wrap (`wrap`), as the array indexing of the source program does.
-/
import proofs.«131183_j47167330844989_1_alg».proof.Proof.Gen.ReferenceIdeal
import Idealize.ShloMosaic.PureOps.Ideal

noncomputable section

namespace Cert.Gcn

open Idealize.ShloMosaic Cert.ReferenceIdeal Cert.ReferenceIdeal.Gen

/-- The edges' sources: row 0 of the edge list, then the self loops. -/
def src (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: row 1 of the edge list, then the self loops. -/
def dst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A column of node indices with the negative ones wrapped by `N`. -/
def wrap (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The in-degrees: ones summed into the edges' targets. -/
def deg (d : IVec S1700000 32) : FVec Ideal S100000 .f32 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- Where the in-degree is positive. -/
def positive (d : IVec S1700000 32) : IVec S100000 1 :=
  cmpf (F := Ideal) .ogt (deg d) (broadcastInDim S100000 ![] bcast_S_S100000 (constant (F := Ideal) S_ .f32 0x00000000#32))

/-- The in-degree to the power `-1/2`. -/
def power (d : IVec S1700000 32) : FVec Ideal S100000 .f32 :=
  Host.powf (deg d) (broadcastInDim S100000 ![] bcast_S_S100000 (constant (F := Ideal) S_ .f32 0xBF000000#32))

/-- `deg ^ (-1/2)` where the degree is positive, `0` elsewhere. -/
def dinv (d : IVec S1700000 32) : FVec Ideal S100000 .f32 :=
  select (positive d) (power d) (broadcastInDim S100000 ![] bcast_S_S100000 (id (constant (F := Ideal) S_ .f32 0x00000000#32)))

/-- The edges' weights: `dinv` at the source times `dinv` at the target. -/
def norm (s d : IVec S1700000 32) : FVec Ideal S1700000 .f32 :=
  mulf (Host.gather gather_S100000_S1700000x1_S1700000_n_0_n_n_0_1_1 (dinv d) (wrap s)) (Host.gather gather_S100000_S1700000x1_S1700000_n_0_n_n_0_1_1 (dinv d) (wrap d))

/-- Rows gathered at the sources, scaled by the edges' weights, summed into the targets (128 channels). -/
def agg128 (h : FVec Ideal S100000x128 .f32) (s d : IVec S1700000 32) (n : FVec Ideal S1700000 .f32) : FVec Ideal S100000x128 .f32 :=
  Host.scatterAdd scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 d) (mulf (Host.gather gather_S100000x128_S1700000x1_S1700000x128_1_0_n_n_0_1_1128 h (wrap s)) (broadcastInDim S1700000x128 ![0, 1] bcast_S1700000x1_S1700000x128_0_1 (broadcastInDim S1700000x1 ![0] bcast_S1700000_S1700000x1_0 n)))

/-- The same with 64 channels. -/
def agg64 (h : FVec Ideal S100000x64 .f32) (s d : IVec S1700000 32) (n : FVec Ideal S1700000 .f32) : FVec Ideal S100000x64 .f32 :=
  Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 n)))

/-- The first layer's product `x · W1`. -/
def prod1 (x : FVec Ideal S100000x64 .f32) (w : FVec Ideal S64x128 .f32) : FVec Ideal S100000x128 .f32 :=
  Host.dotGeneral dot_S100000x64_S64x128_S100000x128_1_0_0_1_n_n none x w

/-- The second layer's product `h · W2`. -/
def prod2 (h : FVec Ideal S100000x128 .f32) (w : FVec Ideal S128x64 .f32) : FVec Ideal S100000x64 .f32 :=
  Host.dotGeneral dot_S100000x128_S128x64_S100000x64_1_0_0_1_n_n none h w

/-- The first layer's bias row added to every node's row, then `max(·, 0)`. -/
def biasRelu (a : FVec Ideal S100000x128 .f32) (b : FVec Ideal S128 .f32) : FVec Ideal S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The second layer's bias row added to every node's row. -/
def bias (a : FVec Ideal S100000x64 .f32) (b : FVec Ideal S64 .f32) : FVec Ideal S100000x64 .f32 :=
  addf a (broadcastInDim S100000x64 ![0, 1] bcast_S1x64_S100000x64_0_1 (broadcastInDim S1x64 ![1] bcast_S64_S1x64_1 b))

/-- Per graph: the sum of its nodes' rows divided by `max(number of nodes, 1)`. -/
def pool (h : FVec Ideal S100000x64 .f32) (g : IVec S100000 32) : FVec Ideal S64x64 .f32 :=
  Host.divf (Host.scatterAdd scatter_S64x64_S100000x1_S100000x64_1_0_0_1 (broadcastInDim S64x64 ![] bcast_S_S64x64 (constant (F := Ideal) S_ .f32 0x00000000#32)) (broadcastInDim S100000x1 ![0] bcast_S100000_S100000x1_0 g) h) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant (F := Ideal) S_ .f32 0x00000000#32)) (broadcastInDim S100000x1 ![0] bcast_S100000_S100000x1_0 g) (broadcastInDim S100000 ![] bcast_S_S100000 (constant (F := Ideal) S_ .f32 0x3F800000#32))) (broadcastInDim S64 ![] bcast_S_S64 (constant (F := Ideal) S_ .f32 0x3F800000#32)))))

/-- The whole network on its seven inputs. -/
def net (x : FVec Ideal S100000x64 .f32) (e : IVec S2x1600000 32) (g : IVec S100000 32) (w1 : FVec Ideal S64x128 .f32)
    (b1 : FVec Ideal S128 .f32) (w2 : FVec Ideal S128x64 .f32) (b2 : FVec Ideal S64 .f32) : FVec Ideal S64x64 .f32 :=
  pool (bias (agg64 (prod2 (biasRelu (agg128 (prod1 x w1) (src e) (dst e) (norm (src e) (dst e))) b1) w2)
    (src e) (dst e) (norm (src e) (dst e))) b2) g

end Cert.Gcn

end
-- ==== Proof.ReferenceNet.lean ====
/-
  The reference program computes the network: its run's result, the composed term of its host operations applied to
  the launch contents of the arguments, is the staged function of those contents — the same operations, grouped.
-/
import proofs.«131183_j47167330844989_1_alg».proof.Proof.RefRun
import proofs.«131183_j47167330844989_1_alg».proof.Proof.Stages

set_option maxRecDepth 16384

noncomputable section

namespace Cert.Gcn

open Idealize.ShloMosaic Idealize.ShloMosaic.TcCoe Idealize.SL.Sem Cert.ReferenceIdeal Cert.ReferenceIdeal.Gen

theorem reference_result (m : (ℓ : Loc nD τ sig) → Buf (Elt Ideal) ℓ) (c : Dev nD) :
    Cert.ReferenceIdeal.ValueP.res_main_v77 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.ValueP.res_main_v77 net pool bias agg64 prod2 biasRelu agg128 prod1 norm dinv positive power deg wrap src dst
  rfl

end Cert.Gcn

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«131183_j47167330844989_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.ProductOne.lean ====
/-
  The first layer's product, tile by tile.

  The first kernel multiplies a block of 5000 consecutive rows of the node features `A` (100000 × 64) by the whole
  weight matrix `W` (64 × 128), at each of its 20 grid points, and writes the 5000 × 128 result back as the same
  rows of its output. Entry `(p, q)` of the block product at point `t` is `∑ₖ A (5000·t + p, k) · W (k, q)`, which is
  entry `(5000·t + p, q)` of the one product `A · W`: the same sum term by term (the rounding of the operands to
  bf16 on the way into the product is the identity on the extended reals), so nothing is asked of the entries.
  The 20 blocks tile the rows, hence the output array ends as `A · W`.
-/
import proofs.«131183_j47167330844989_1_alg».proof.Proof.Gen.KernelIdeal.Frame
import proofs.«131183_j47167330844989_1_alg».proof.Proof.LibRowBlock
import Idealize.ShloMosaic.Lib.Pipeline.Value
import Idealize.ShloMosaic.Lib.ValueIdx

set_option maxRecDepth 16384

noncomputable section

namespace Cert.KernelIdeal.ProductOne

open Idealize.ShloMosaic Idealize.ShloMosaic.TcCoe Idealize.ShloMosaic.ValueIdx Idealize.SL.Sem
open Cert.KernelIdeal Cert.KernelIdeal.Gen
open Idealize.ShloMosaic.Pipeline (Dat)

/-- The whole product `A · W` as the host computes it. -/
def whole (A : FVec Ideal S100000x64 .f32) (W : FVec Ideal S64x128 .f32) : FVec Ideal S100000x128 .f32 :=
  FloatOps.dotGeneral (DotDims.plain 100000 64 128) none .single A W

theorem zeros : (![0, 0] : Fin 2 → Nat) = fun _ => 0 := funext fun a => by fin_cases a <;> rfl

/-- At point `t` the feature window and the output window sit at row block `t`, the weight window at its one block. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of a block product is entry `(P, q)` of the whole product, when row `p` of the block is row `P`
    of `A` and the block's right operand is `W`. -/
theorem pay_entry (x0 : Vec Ideal S5000x64 .f32) (x1 : Vec Ideal S64x128 .f32)
    (A : FVec Ideal S100000x64 .f32) (W : FVec Ideal S64x128 .f32) (P : Fin 100000) (p : Fin 5000) (q : Fin 128)
    (hx : ∀ k : Fin 64, x0 (ix2 p k) = A (ix2 P k)) (hw : ∀ k : Fin 64, x1 (ix2 k q) = W (ix2 k q)) :
    k0_pay1 (F := Ideal) x0 x1 (ix2 p q) = whole A W (ix2 P q) := by
  unfold k0_pay1 whole
  exact Cert.Lib.RowBlock.matmul_eq_dotGeneral none none .single A W _ _ P p q hx hw

/-- The same at any entry `y` of the block and entry `i` of the array in the same column, row `y 0` of the block being
    row `i 0` of `A`. -/
theorem pay_point (x0 : Vec Ideal S5000x64 .f32) (x1 : Vec Ideal S64x128 .f32)
    (A : FVec Ideal S100000x64 .f32) (W : FVec Ideal S64x128 .f32) (y : S5000x128.Idx) (i : S100000x128.Idx)
    (h1 : (i 1).val = (y 1).val)
    (hx : ∀ k : Fin 64, x0 (ix2 (y 0) k) = A (ix2 (i 0) k)) (hw : ∀ k : Fin 64, x1 (ix2 k (y 1)) = W (ix2 k (y 1))) :
    k0_pay1 (F := Ideal) x0 x1 y = whole A W i := by
  have hy : y = ix2 (y 0) (y 1) := eq_ix2 y
  have hi : i = ix2 (i 0) (y 1) := by
    funext a
    match a with
    | ⟨0, _⟩ => rfl
    | ⟨1, _⟩ => exact Fin.ext h1
  rw [hy, hi]
  exact pay_entry x0 x1 A W (i 0) (y 0) (y 1) hx hw

variable (V : (c : Dev nD) → (b : Ref sig .tc) → Buf (Elt Ideal) ((c : Thread nD τ).loc b))

/-- What point `t` writes back is block `t` of the whole product of the arrays as the region finds them. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero zeros]
  simp only [View.ld_unit_zero (S := S5000x64) zeros, View.ld_unit_zero (S := S64x128) zeros]
  obtain ⟨e0, e1, e2, e3, e4, e5⟩ := blocks_at t
  funext j
  refine pay_point _ _ _ _ j (((cfg0.win 2).blk t).view.emb j) ?_ (fun k => ?_) (fun k => ?_)
  · show win0_2.index t (1 : Fin 2) * 128 + 1 * (j 1).val = (j 1).val
    omega
  · show V c main_arg0 (((cfg0.win 0).blk t).view.emb (ix2 (j 0) k)) = V c main_arg0 (ix2 ((((cfg0.win 2).blk t).view.emb j) 0) k)
    have h : ((cfg0.win 0).blk t).view.emb (ix2 (j 0) k) = ix2 ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 64 + 1 * k.val = k.val; omega
    exact congrArg (V c main_arg0) h
  · show V c main_arg3 (((cfg0.win 1).blk t).view.emb (ix2 k (j 1))) = V c main_arg3 (ix2 k (j 1))
    have h : ((cfg0.win 1).blk t).view.emb (ix2 k (j 1)) = ix2 k (j 1) := by
      funext a; apply Fin.ext
      match a with
      | ⟨0, _⟩ => show win0_1.index t (0 : Fin 2) * 64 + 1 * k.val = k.val; omega
      | ⟨1, _⟩ => show win0_1.index t (1 : Fin 2) * 128 + 1 * (j 1).val = (j 1).val; omega
    exact congrArg (V c main_arg3) h

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row `r` lies in the block of point `r / 5000`: the blocks tile the output. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; rw [hN]; omega⟩, rfl⟩
  refine ⟨t, flush0_2 t, ?_⟩
  rw [mem_blk]
  obtain ⟨e0, e1, e2, e3, e4, e5⟩ := blocks_at t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product of the arrays the region found. -/
theorem final (c : Dev nD) : (dat0 V c).arrAt 2 cfg0.N = whole (V c main_arg0) (V c main_arg3) :=
  (dat0 V c).arrAt_eq_of_cover 2 _ (fun t _ => flushed_eq V c t) cover

end Cert.KernelIdeal.ProductOne

end
-- ==== Proof.ProductTwo.lean ====
/-
  The second layer's product, tile by tile.

  The third kernel multiplies a block of 5000 consecutive rows of the hidden features `A` (100000 × 128) by the whole
  weight matrix `W` (128 × 64), at each of its 20 grid points, and writes the 5000 × 64 result back as the same
  rows of its output. Entry `(p, q)` of the block product at point `t` is `∑ₖ A (5000·t + p, k) · W (k, q)`, which is
  entry `(5000·t + p, q)` of the one product `A · W`: the same sum term by term (the rounding of the operands to
  bf16 on the way into the product is the identity on the extended reals), so nothing is asked of the entries.
  The 20 blocks tile the rows, hence the output array ends as `A · W`.
-/
import proofs.«131183_j47167330844989_1_alg».proof.Proof.Gen.KernelIdeal.Frame
import proofs.«131183_j47167330844989_1_alg».proof.Proof.LibRowBlock
import Idealize.ShloMosaic.Lib.Pipeline.Value
import Idealize.ShloMosaic.Lib.ValueIdx

set_option maxRecDepth 16384

noncomputable section

namespace Cert.KernelIdeal.ProductTwo

open Idealize.ShloMosaic Idealize.ShloMosaic.TcCoe Idealize.ShloMosaic.ValueIdx Idealize.SL.Sem
open Cert.KernelIdeal Cert.KernelIdeal.Gen
open Idealize.ShloMosaic.Pipeline (Dat)

/-- The whole product `A · W` as the host computes it. -/
def whole (A : FVec Ideal S100000x128 .f32) (W : FVec Ideal S128x64 .f32) : FVec Ideal S100000x64 .f32 :=
  FloatOps.dotGeneral (DotDims.plain 100000 128 64) none .single A W

theorem zeros : (![0, 0] : Fin 2 → Nat) = fun _ => 0 := funext fun a => by fin_cases a <;> rfl

/-- At point `t` the feature window and the output window sit at row block `t`, the weight window at its one block. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, q)` of a block product is entry `(P, q)` of the whole product, when row `p` of the block is row `P`
    of `A` and the block's right operand is `W`. -/
theorem pay_entry (x0 : Vec Ideal S5000x128 .f32) (x1 : Vec Ideal S128x64 .f32)
    (A : FVec Ideal S100000x128 .f32) (W : FVec Ideal S128x64 .f32) (P : Fin 100000) (p : Fin 5000) (q : Fin 64)
    (hx : ∀ k : Fin 128, x0 (ix2 p k) = A (ix2 P k)) (hw : ∀ k : Fin 128, x1 (ix2 k q) = W (ix2 k q)) :
    k2_pay1 (F := Ideal) x0 x1 (ix2 p q) = whole A W (ix2 P q) := by
  unfold k2_pay1 whole
  refine Cert.Lib.RowBlock.matmul_eq_dotGeneral none none .single A W _ _ P p q (fun k => ?_) hw
  exact (congrFun (shapeCast_self x0 _) (ix2 p k)).trans (hx k)

/-- The same at any entry `y` of the block and entry `i` of the array in the same column, row `y 0` of the block being
    row `i 0` of `A`. -/
theorem pay_point (x0 : Vec Ideal S5000x128 .f32) (x1 : Vec Ideal S128x64 .f32)
    (A : FVec Ideal S100000x128 .f32) (W : FVec Ideal S128x64 .f32) (y : S5000x64.Idx) (i : S100000x64.Idx)
    (h1 : (i 1).val = (y 1).val)
    (hx : ∀ k : Fin 128, x0 (ix2 (y 0) k) = A (ix2 (i 0) k)) (hw : ∀ k : Fin 128, x1 (ix2 k (y 1)) = W (ix2 k (y 1))) :
    k2_pay1 (F := Ideal) x0 x1 y = whole A W i := by
  have hy : y = ix2 (y 0) (y 1) := eq_ix2 y
  have hi : i = ix2 (i 0) (y 1) := by
    funext a
    match a with
    | ⟨0, _⟩ => rfl
    | ⟨1, _⟩ => exact Fin.ext h1
  rw [hy, hi]
  exact pay_entry x0 x1 A W (i 0) (y 0) (y 1) hx hw

variable (V : (c : Dev nD) → (b : Ref sig .tc) → Buf (Elt Ideal) ((c : Thread nD τ).loc b))

/-- What point `t` writes back is block `t` of the whole product of the arrays as the region finds them. -/
theorem flushed_eq (c : Dev nD) (t : Fin cfg2.N) :
    (dat2 V c).flushed 2 t = ((cfg2.win 2).blk t).view.read (Elt Ideal) (whole (V c main_v46) (V c main_arg5)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x64) zeros]
  obtain ⟨e0, e1, e2, e3, e4, e5⟩ := blocks_at t
  funext j
  refine pay_point _ _ _ _ j (((cfg2.win 2).blk t).view.emb j) ?_ (fun k => ?_) (fun k => ?_)
  · show win2_2.index t (1 : Fin 2) * 64 + 1 * (j 1).val = (j 1).val
    omega
  · show V c main_v46 (((cfg2.win 0).blk t).view.emb (ix2 (j 0) k)) = V c main_v46 (ix2 ((((cfg2.win 2).blk t).view.emb j) 0) k)
    have h : ((cfg2.win 0).blk t).view.emb (ix2 (j 0) k) = ix2 ((((cfg2.win 2).blk t).view.emb j) 0) k := by
      funext a; apply Fin.ext
      match a with
      | ⟨0, _⟩ => show win2_0.index t (0 : Fin 2) * 5000 + 1 * (j 0).val = win2_2.index t (0 : Fin 2) * 5000 + 1 * (j 0).val; omega
      | ⟨1, _⟩ => show win2_0.index t (1 : Fin 2) * 128 + 1 * k.val = k.val; omega
    exact congrArg (V c main_v46) h
  · show V c main_arg5 (((cfg2.win 1).blk t).view.emb (ix2 k (j 1))) = V c main_arg5 (ix2 k (j 1))
    have h : ((cfg2.win 1).blk t).view.emb (ix2 k (j 1)) = ix2 k (j 1) := by
      funext a; apply Fin.ext
      match a with
      | ⟨0, _⟩ => show win2_1.index t (0 : Fin 2) * 128 + 1 * k.val = k.val; omega
      | ⟨1, _⟩ => show win2_1.index t (1 : Fin 2) * 64 + 1 * (j 1).val = (j 1).val; omega
    exact congrArg (V c main_arg5) h

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Row `r` lies in the block of point `r / 5000`: the blocks tile the output. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  obtain ⟨t, ht⟩ : ∃ t : Fin cfg2.N, t.val = (i 0).val / 5000 := ⟨⟨(i 0).val / 5000, by show _ < grid2.N; rw [hN]; omega⟩, rfl⟩
  refine ⟨t, flush2_2 t, ?_⟩
  rw [mem_blk]
  obtain ⟨e0, e1, e2, e3, e4, e5⟩ := blocks_at t
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region is the whole product of the arrays the region found. -/
theorem final (c : Dev nD) : (dat2 V c).arrAt 2 cfg2.N = whole (V c main_v46) (V c main_arg5) :=
  (dat2 V c).arrAt_eq_of_cover 2 _ (fun t _ => flushed_eq V c t) cover

end Cert.KernelIdeal.ProductTwo

end
-- ==== Proof.BiasReluTile.lean ====
/-
  The first layer's bias and rectifier, tile by tile.

  The second kernel adds the bias row (1 × 128) to a block of 5000 consecutive rows of the aggregated features
  (100000 × 128) and takes `max(·, 0)`, at each of its 20 grid points, and writes the block back as the same rows of its output.
  Entry `(p, q)` of the block at point `t` is `max (a (5000·t + p, q) + b q) 0`: a pointwise function of the array's entry
  `(5000·t + p, q)` and the row's entry `q`. The 20 blocks tile the rows, hence the output array ends as that
  function of the whole array. The row is the bias vector with a unit axis put in front; read at `(0, q)` it is the
  vector at `q`, and so is the host's broadcast of the vector over the nodes: the two spellings of "add the bias to
  every row" are one array.
-/
import proofs.«131183_j47167330844989_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasReluTile

open Idealize.ShloMosaic Idealize.ShloMosaic.TcCoe Idealize.ShloMosaic.ValueIdx Idealize.SL.Sem
open Cert.KernelIdeal Cert.KernelIdeal.Gen
open Idealize.ShloMosaic.Pipeline (Dat)

/-- The bias row added to every row of `a`, then `max(·, 0)`, as one array. -/
def whole (a : FVec Ideal S100000x128 .f32) (row : FVec Ideal S1x128 .f32) : FVec Ideal S100000x128 .f32 :=
  fun i => max (a i + row (ix2 (0 : Fin 1) (i 1 : Fin 128))) (Ideal.ofBits .f32 0x00000000#32)

theorem zeros : (![0, 0] : Fin 2 → Nat) = fun _ => 0 := funext fun a => by fin_cases a <;> rfl

/-- At point `t` the input window and the output window sit at row block `t`, the bias row's window at its one block. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at entry `(p, q)` of the block. -/
theorem pay_entry (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  show max (shapeCast S5000x128 x0 _ (ix2 p q) + broadcastTo S5000x128 (shapeCast S1x128 x1 _) _ (ix2 p q)) _ = _
  rw [shapeCast_self, broadcastTo_1b_ab_apply, shapeCast_self]
  rfl

/-- The same at any entry `y` of the block and entry `i` of the array in the same column, the block's entry being the
    array's and the block's row the bias row. -/
theorem pay_point (x0 : Vec Ideal S5000x128 .f32) (x1 : Vec Ideal S1x128 .f32)
    (a : FVec Ideal S100000x128 .f32) (row : FVec Ideal S1x128 .f32) (y : S5000x128.Idx) (i : S100000x128.Idx)
    (h1 : (i 1).val = (y 1).val) (hx : x0 y = a i)
    (hrow : ∀ q : Fin 128, x1 (ix2 (0 : Fin 1) q) = row (ix2 (0 : Fin 1) q)) :
    k1_pay1 (F := Ideal) x0 x1 y = whole a row i := by
  have hy : y = ix2 (y 0) (y 1) := eq_ix2 y
  have hq : (i 1 : Fin 128) = (y 1 : Fin 128) := Fin.ext h1
  refine ((congrArg (k1_pay1 (F := Ideal) x0 x1) hy).trans (pay_entry x0 x1 (y 0) (y 1))).trans ?_
  have e2 : x0 (ix2 (y 0) (y 1)) = a i := (congrArg x0 hy.symm).trans hx
  have e3 : x1 (ix2 (0 : Fin 1) (y 1)) = row (ix2 (0 : Fin 1) (i 1 : Fin 128)) :=
    (hrow (y 1)).trans (congrArg (fun q : Fin 128 => row (ix2 (0 : Fin 1) q)) hq.symm)
  exact congrArg₂ (fun u v : EReal => max (u + v) (Ideal.ofBits .f32 0x00000000#32)) e2 e3

variable (V : (c : Dev nD) → (b : Ref sig .tc) → Buf (Elt Ideal) ((c : Thread nD τ).loc b))

/-- What point `t` writes back is block `t` of the one array. -/
theorem flushed_eq (c : Dev nD) (t : Fin cfg1.N) :
    (dat1 V c).flushed 2 t = ((cfg1.win 2).blk t).view.read (Elt Ideal) (whole (V c main_v44) (V c main_v45)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨e0, e1, e2, e3, e4, e5⟩ := blocks_at t
  funext j
  refine pay_point _ _ _ _ j (((cfg1.win 2).blk t).view.emb j) ?_ ?_ (fun q => ?_)
  · show win1_2.index t (1 : Fin 2) * 128 + 1 * (j 1).val = (j 1).val
    omega
  · show V c main_v44 (((cfg1.win 0).blk t).view.emb j) = V c main_v44 (((cfg1.win 2).blk t).view.emb j)
    have h : ((cfg1.win 0).blk t).view.emb j = ((cfg1.win 2).blk t).view.emb j := by
      funext a; apply Fin.ext
      match a with
      | ⟨0, _⟩ => show win1_0.index t (0 : Fin 2) * 5000 + 1 * (j 0).val = win1_2.index t (0 : Fin 2) * 5000 + 1 * (j 0).val; omega
      | ⟨1, _⟩ => show win1_0.index t (1 : Fin 2) * 128 + 1 * (j 1).val = win1_2.index t (1 : Fin 2) * 128 + 1 * (j 1).val; omega
    exact congrArg (V c main_v44) h
  · show V c main_v45 (((cfg1.win 1).blk t).view.emb (ix2 (0 : Fin 1) q)) = V c main_v45 (ix2 (0 : Fin 1) q)
    have h : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 128 + 1 * q.val = q.val; omega
    exact congrArg (V c main_v45) h

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row `r` lies in the block of point `r / 5000`: the blocks tile the output. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; rw [hN]; omega⟩, rfl⟩
  refine ⟨t, flush1_2 t, ?_⟩
  rw [mem_blk]
  obtain ⟨e0, e1, e2, e3, e4, e5⟩ := blocks_at t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is the one array, of the arrays the region found. -/
theorem final (c : Dev nD) : (dat1 V c).arrAt 2 cfg1.N = whole (V c main_v44) (V c main_v45) :=
  (dat1 V c).arrAt_eq_of_cover 2 _ (fun t _ => flushed_eq V c t) cover

/-- With the row the bias vector `b` under a leading unit axis, the one array is the host's: `a` plus `b` broadcast
    over the nodes, then the maximum with the zero array. -/
theorem whole_eq_host (a : FVec Ideal S100000x128 .f32) (b : FVec Ideal S128 .f32) (hc : S128.ShapeCasts S1x128)
    (h1 : S128.BroadcastsInDim S1x128 (![1] : Fin 1 → Fin S1x128.rank))
    (h2 : S1x128.BroadcastsInDim S100000x128 (![0, 1] : Fin 2 → Fin S100000x128.rank))
    (h3 : S_.BroadcastsInDim S100000x128 (![] : Fin 0 → Fin S100000x128.rank)) :
    whole a (shapeCast S1x128 b hc)
      = maximumf (addf a (broadcastInDim S100000x128 ![0, 1] h2 (broadcastInDim S1x128 ![1] h1 b)))
          (broadcastInDim S100000x128 ![] h3 (constant (F := Ideal) S_ .f32 0x00000000#32)) := by
  funext i
  obtain ⟨p, q, rfl⟩ : ∃ (p : Fin 100000) (q : Fin 128), i = ix2 p q := ⟨i 0, i 1, eq_ix2 i⟩
  have hrow : broadcastInDim S100000x128 ![0, 1] h2 (broadcastInDim S1x128 ![1] h1 b) (ix2 p q) = b (ix1 q) := by
    rw [broadcastInDim_apply ![0, 1] h2 _ (ix2 p q) (ix2 (0 : Fin 1) q) (fun ax => by
      match ax with
      | ⟨0, _⟩ => rfl
      | ⟨1, _⟩ => rfl)]
    exact broadcastInDim_apply ![1] h1 b (ix2 (0 : Fin 1) q) (ix1 q) (fun ax => by
      match ax with
      | ⟨0, _⟩ => rfl)
  show max (a (ix2 p q) + shapeCast S1x128 b hc (ix2 (0 : Fin 1) q)) (Ideal.ofBits .f32 0x00000000#32)
      = max (a (ix2 p q) + broadcastInDim S100000x128 ![0, 1] h2 (broadcastInDim S1x128 ![1] h1 b) (ix2 p q))
          (broadcastInDim S100000x128 ![] h3 (constant (F := Ideal) S_ .f32 0x00000000#32) (ix2 p q))
  rw [hrow, shapeCast_a_1a_apply, broadcastInDim_apply ![] h3 _ (ix2 p q) ix0 (fun ax => ax.elim0)]
  rfl

end Cert.KernelIdeal.BiasReluTile

end
-- ==== Proof.BiasTile.lean ====
/-
  The second layer's bias, tile by tile.

  The fourth kernel adds the bias row (1 × 64) to a block of 5000 consecutive rows of the aggregated features
  (100000 × 64), at each of its 20 grid points, and writes the block back as the same rows of its output.
  Entry `(p, q)` of the block at point `t` is `a (5000·t + p, q) + b q`: a pointwise function of the array's entry
  `(5000·t + p, q)` and the row's entry `q`. The 20 blocks tile the rows, hence the output array ends as that
  function of the whole array. The row is the bias vector with a unit axis put in front; read at `(0, q)` it is the
  vector at `q`, and so is the host's broadcast of the vector over the nodes: the two spellings of "add the bias to
  every row" are one array.
-/
import proofs.«131183_j47167330844989_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasTile

open Idealize.ShloMosaic Idealize.ShloMosaic.TcCoe Idealize.ShloMosaic.ValueIdx Idealize.SL.Sem
open Cert.KernelIdeal Cert.KernelIdeal.Gen
open Idealize.ShloMosaic.Pipeline (Dat)

/-- The bias row added to every row of `a`, as one array. -/
def whole (a : FVec Ideal S100000x64 .f32) (row : FVec Ideal S1x64 .f32) : FVec Ideal S100000x64 .f32 :=
  fun i => a i + row (ix2 (0 : Fin 1) (i 1 : Fin 64))

theorem zeros : (![0, 0] : Fin 2 → Nat) = fun _ => 0 := funext fun a => by fin_cases a <;> rfl

/-- At point `t` the input window and the output window sit at row block `t`, the bias row's window at its one block. -/
theorem blocks_at : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at entry `(p, q)` of the block. -/
theorem pay_entry (x0 : Vec Ideal S5000x64 .f32) (x1 : Vec Ideal S1x64 .f32) (p : Fin 5000) (q : Fin 64) :
    k3_pay1 (F := Ideal) x0 x1 (ix2 p q)
      = x0 (ix2 p q) + x1 (ix2 (0 : Fin 1) q) := by
  unfold k3_pay1
  show shapeCast S5000x64 x0 _ (ix2 p q) + broadcastTo S5000x64 (shapeCast S1x64 x1 _) _ (ix2 p q) = _
  rw [shapeCast_self, broadcastTo_1b_ab_apply, shapeCast_self]

/-- The same at any entry `y` of the block and entry `i` of the array in the same column, the block's entry being the
    array's and the block's row the bias row. -/
theorem pay_point (x0 : Vec Ideal S5000x64 .f32) (x1 : Vec Ideal S1x64 .f32)
    (a : FVec Ideal S100000x64 .f32) (row : FVec Ideal S1x64 .f32) (y : S5000x64.Idx) (i : S100000x64.Idx)
    (h1 : (i 1).val = (y 1).val) (hx : x0 y = a i)
    (hrow : ∀ q : Fin 64, x1 (ix2 (0 : Fin 1) q) = row (ix2 (0 : Fin 1) q)) :
    k3_pay1 (F := Ideal) x0 x1 y = whole a row i := by
  have hy : y = ix2 (y 0) (y 1) := eq_ix2 y
  have hq : (i 1 : Fin 64) = (y 1 : Fin 64) := Fin.ext h1
  refine ((congrArg (k3_pay1 (F := Ideal) x0 x1) hy).trans (pay_entry x0 x1 (y 0) (y 1))).trans ?_
  have e2 : x0 (ix2 (y 0) (y 1)) = a i := (congrArg x0 hy.symm).trans hx
  have e3 : x1 (ix2 (0 : Fin 1) (y 1)) = row (ix2 (0 : Fin 1) (i 1 : Fin 64)) :=
    (hrow (y 1)).trans (congrArg (fun q : Fin 64 => row (ix2 (0 : Fin 1) q)) hq.symm)
  exact congrArg₂ (fun u v : EReal => u + v) e2 e3

variable (V : (c : Dev nD) → (b : Ref sig .tc) → Buf (Elt Ideal) ((c : Thread nD τ).loc b))

/-- What point `t` writes back is block `t` of the one array. -/
theorem flushed_eq (c : Dev nD) (t : Fin cfg3.N) :
    (dat3 V c).flushed 2 t = ((cfg3.win 2).blk t).view.read (Elt Ideal) (whole (V c main_v60) (V c main_v61)) := by
  show (cfg3.win 2).cut (grid3.coords t) ((dat3 V c).after 2 t) = _
  rw [after3_2]
  unfold out3_2
  rw [View.canon_unit_zero zeros]
  simp only [View.ld_unit_zero (S := S5000x64) zeros, View.ld_unit_zero (S := S1x64) zeros]
  obtain ⟨e0, e1, e2, e3, e4, e5⟩ := blocks_at t
  funext j
  refine pay_point _ _ _ _ j (((cfg3.win 2).blk t).view.emb j) ?_ ?_ (fun q => ?_)
  · show win3_2.index t (1 : Fin 2) * 64 + 1 * (j 1).val = (j 1).val
    omega
  · show V c main_v60 (((cfg3.win 0).blk t).view.emb j) = V c main_v60 (((cfg3.win 2).blk t).view.emb j)
    have h : ((cfg3.win 0).blk t).view.emb j = ((cfg3.win 2).blk t).view.emb j := by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 64 + 1 * (j 1).val = win3_2.index t (1 : Fin 2) * 64 + 1 * (j 1).val; omega
    exact congrArg (V c main_v60) h
  · show V c main_v61 (((cfg3.win 1).blk t).view.emb (ix2 (0 : Fin 1) q)) = V c main_v61 (ix2 (0 : Fin 1) q)
    have h : ((cfg3.win 1).blk t).view.emb (ix2 (0 : Fin 1) q) = ix2 (0 : Fin 1) q := by
      funext a; apply Fin.ext
      match a with
      | ⟨0, _⟩ => show win3_1.index t (0 : Fin 2) * 1 + 1 * 0 = 0; omega
      | ⟨1, _⟩ => show win3_1.index t (1 : Fin 2) * 64 + 1 * q.val = q.val; omega
    exact congrArg (V c main_v61) h

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v62).slice (win3_2.rect t)).set ↔ _
  rw [View.set_slice_whole, Rect.mem_set_unit]
  exact Iff.rfl

/-- Row `r` lies in the block of point `r / 5000`: the blocks tile the output. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  obtain ⟨t, ht⟩ : ∃ t : Fin cfg3.N, t.val = (i 0).val / 5000 := ⟨⟨(i 0).val / 5000, by show _ < grid3.N; rw [hN]; omega⟩, rfl⟩
  refine ⟨t, flush3_2 t, ?_⟩
  rw [mem_blk]
  obtain ⟨e0, e1, e2, e3, e4, e5⟩ := blocks_at t
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region is the one array, of the arrays the region found. -/
theorem final (c : Dev nD) : (dat3 V c).arrAt 2 cfg3.N = whole (V c main_v60) (V c main_v61) :=
  (dat3 V c).arrAt_eq_of_cover 2 _ (fun t _ => flushed_eq V c t) cover

/-- With the row the bias vector `b` under a leading unit axis, the one array is the host's: `a` plus `b` broadcast
    over the nodes. -/
theorem whole_eq_host (a : FVec Ideal S100000x64 .f32) (b : FVec Ideal S64 .f32) (hc : S64.ShapeCasts S1x64)
    (h1 : S64.BroadcastsInDim S1x64 (![1] : Fin 1 → Fin S1x64.rank))
    (h2 : S1x64.BroadcastsInDim S100000x64 (![0, 1] : Fin 2 → Fin S100000x64.rank)) :
    whole a (shapeCast S1x64 b hc)
      = addf a (broadcastInDim S100000x64 ![0, 1] h2 (broadcastInDim S1x64 ![1] h1 b)) := by
  funext i
  obtain ⟨p, q, rfl⟩ : ∃ (p : Fin 100000) (q : Fin 64), i = ix2 p q := ⟨i 0, i 1, eq_ix2 i⟩
  have hrow : broadcastInDim S100000x64 ![0, 1] h2 (broadcastInDim S1x64 ![1] h1 b) (ix2 p q) = b (ix1 q) := by
    rw [broadcastInDim_apply ![0, 1] h2 _ (ix2 p q) (ix2 (0 : Fin 1) q) (fun ax => by
      match ax with
      | ⟨0, _⟩ => rfl
      | ⟨1, _⟩ => rfl)]
    exact broadcastInDim_apply ![1] h1 b (ix2 (0 : Fin 1) q) (ix1 q) (fun ax => by
      match ax with
      | ⟨0, _⟩ => rfl)
  show a (ix2 p q) + shapeCast S1x64 b hc (ix2 (0 : Fin 1) q)
      = a (ix2 p q) + broadcastInDim S100000x64 ![0, 1] h2 (broadcastInDim S1x64 ![1] h1 b) (ix2 p q)
  rw [hrow, shapeCast_a_1a_apply]

end Cert.KernelIdeal.BiasTile

end
-- ==== Proof.Boundaries.lean ====
/-
  The kernel program's buffers, boundary by boundary.

  Between the launch and the return the program's buffers pass ten boundaries: after each stretch of host operations
  and after each tiled kernel. At each boundary the buffers still to be read are named here as stages of the network
  applied to the launch contents of the arguments: the edges' endpoints and weights after the opening stretch; then
  the first product, its aggregation and bias row, the rectified hidden features, the second product, its aggregation
  and bias row, the second layer's output, and at the return the pooled result. A host stretch is read operation by
  operation; a kernel's output array is what its tiles leave (one whole-array function of its input arrays); a buffer
  a segment does not write keeps its contents.
-/
import proofs.«131183_j47167330844989_1_alg».proof.Proof.Gen.KernelIdeal.Frame
import proofs.«131183_j47167330844989_1_alg».proof.Proof.Stages
import proofs.«131183_j47167330844989_1_alg».proof.Proof.ProductOne
import proofs.«131183_j47167330844989_1_alg».proof.Proof.ProductTwo
import proofs.«131183_j47167330844989_1_alg».proof.Proof.BiasReluTile
import proofs.«131183_j47167330844989_1_alg».proof.Proof.BiasTile
import Idealize.ShloMosaic.Lib.StableHlo.Run

set_option maxRecDepth 16384
set_option maxHeartbeats 4000000

noncomputable section

namespace Cert.KernelIdeal.Boundaries

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Reads a literal stretch of host operations at one buffer, operation by operation. -/
local macro "read_fold" : tactic =>
  `(tactic| (dsimp only [hostOps0, hostOps0_1, hostOps0_2, hostOps1, hostOps3, hostOps4]; after_results_simp))

/-! ## The opening stretch, in four steps

The stretch before the first kernel is read in four steps, each from the buffers the step before left: the endpoints
(the edge list's rows, each followed by the self loops); the in-degrees with their comparison against zero and their
power `-1/2`; the select between the two; the edges' weights. -/

section Parts
variable {F : FTy → Type} [FloatOps F]

/-- The opening stretch's first seven operations: the edges' endpoints. -/
abbrev endpointOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Its other thirteen: the in-degrees, where they are positive, their power `-1/2`, and a zero. -/
abbrev degreeOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]

/-- The first stretch is the two parts in order. -/
theorem opening_split (V : Valuation τ sig (Elt F)) :
    StableHlo.after (hostOps0 (F := F)) V = StableHlo.after degreeOps (StableHlo.after endpointOps V) := rfl

end Parts

/-- The buffers once the endpoints are computed. -/
def afterEndpoints : Valuation τ sig (Elt Ideal) := StableHlo.after (endpointOps (F := Ideal)) (W0 m ρ c)
/-- The buffers once the in-degrees, their comparison and their power are computed. -/
def afterDegrees : Valuation τ sig (Elt Ideal) := StableHlo.after (degreeOps (F := Ideal)) (afterEndpoints m ρ c)
/-- The buffers once `deg ^ (-1/2)`, `0` where the degree is `0`, is computed. -/
def afterInverse : Valuation τ sig (Elt Ideal) := StableHlo.after hostOps0_1 (afterDegrees m ρ c)

theorem W2_eq : W2 m ρ c = afterInverse m ρ c := by
  show StableHlo.after hostOps0_1 (StableHlo.after hostOps0 (W0 m ρ c)) = _
  rw [opening_split]
  rfl

theorem ends_src : afterEndpoints m ρ c (Proc.devRef .tc main_v3) = (Cert.Gcn.src (m ((c : Thread nD τ).loc main_arg1))) := by
  unfold afterEndpoints
  dsimp only [endpointOps]
  after_results_simp
  rfl
theorem ends_dst : afterEndpoints m ρ c (Proc.devRef .tc main_v6) = (Cert.Gcn.dst (m ((c : Thread nD τ).loc main_arg1))) := by
  unfold afterEndpoints
  dsimp only [endpointOps]
  after_results_simp
  rfl

theorem degs_src : afterDegrees m ρ c (Proc.devRef .tc main_v3) = (Cert.Gcn.src (m ((c : Thread nD τ).loc main_arg1))) := by
  unfold afterDegrees
  dsimp only [degreeOps]
  after_results_simp
  exact ends_src m ρ c
theorem degs_dst : afterDegrees m ρ c (Proc.devRef .tc main_v6) = (Cert.Gcn.dst (m ((c : Thread nD τ).loc main_arg1))) := by
  unfold afterDegrees
  dsimp only [degreeOps]
  after_results_simp
  exact ends_dst m ρ c
theorem degs_positive : afterDegrees m ρ c (Proc.devRef .tc main_v12) = Cert.Gcn.positive (Cert.Gcn.dst (m ((c : Thread nD τ).loc main_arg1))) := by
  unfold afterDegrees
  dsimp only [degreeOps]
  after_results_simp
  rw [ends_dst]
  rfl
theorem degs_power : afterDegrees m ρ c (Proc.devRef .tc main_v14) = Cert.Gcn.power (Cert.Gcn.dst (m ((c : Thread nD τ).loc main_arg1))) := by
  unfold afterDegrees
  dsimp only [degreeOps]
  after_results_simp
  rw [ends_dst]
  rfl
theorem degs_zero : afterDegrees m ρ c (Proc.devRef .tc main_cst_3) = constant (F := Ideal) S_ .f32 0x00000000#32 := by
  unfold afterDegrees
  dsimp only [degreeOps]
  after_results_simp

/-! The called function's buffers hold values of their own types: reading one as its type's contents, or storing such
contents in it, changes nothing. -/

theorem store_v15 (h1 : main_v15.ty = (⟨S100000, .f32⟩ : BufTy)) (h2 : main_v15.space ≠ .host) (h3 : main_v15.isScoped = false)
    (v : (⟨S100000, .f32⟩ : BufTy).Contents (Elt Ideal)) : (TRef.of main_v15 h1 h2 h3).toBuf v = v := rfl
theorem store_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of main_call0_v1 h1 h2 h3).toBuf v = v := rfl
theorem store_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of main_call0_v0 h1 h2 h3).toBuf v = v := rfl
theorem load_v12 (h1 : main_v12.ty = (⟨S100000, .i1⟩ : BufTy)) (h2 : main_v12.space ≠ .host) (h3 : main_v12.isScoped = false)
    (v : (⟨S100000, .i1⟩ : BufTy).Contents (Elt Ideal)) : (TRef.of main_v12 h1 h2 h3).ofBuf v = v := rfl
theorem load_v14 (h1 : main_v14.ty = (⟨S100000, .f32⟩ : BufTy)) (h2 : main_v14.space ≠ .host) (h3 : main_v14.isScoped = false)
    (v : (⟨S100000, .f32⟩ : BufTy).Contents (Elt Ideal)) : (TRef.of main_v14 h1 h2 h3).ofBuf v = v := rfl
theorem load_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of main_call0_v1 h1 h2 h3).ofBuf v = v := rfl
theorem load_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of main_call0_v0 h1 h2 h3).ofBuf v = v := rfl
theorem load_cst_3 (h1 : main_cst_3.ty = (⟨S_, .f32⟩ : BufTy)) (h2 : main_cst_3.space ≠ .host) (h3 : main_cst_3.isScoped = false)
    (v : (⟨S_, .f32⟩ : BufTy).Contents (Elt Ideal)) : (TRef.of main_cst_3 h1 h2 h3).ofBuf v = v := rfl

theorem inv_src : afterInverse m ρ c (Proc.devRef .tc main_v3) = (Cert.Gcn.src (m ((c : Thread nD τ).loc main_arg1))) := by
  unfold afterInverse
  dsimp only [hostOps0_1]
  after_results_simp
  exact degs_src m ρ c
theorem inv_dst : afterInverse m ρ c (Proc.devRef .tc main_v6) = (Cert.Gcn.dst (m ((c : Thread nD τ).loc main_arg1))) := by
  unfold afterInverse
  dsimp only [hostOps0_1]
  after_results_simp
  exact degs_dst m ρ c
theorem inv_dinv : afterInverse m ρ c (Proc.devRef .tc main_v15) = Cert.Gcn.dinv (Cert.Gcn.dst (m ((c : Thread nD τ).loc main_arg1))) := by
  unfold afterInverse
  dsimp only [hostOps0_1]
  after_results_simp
  rw [degs_positive, degs_power, degs_zero]
  rw [store_v15, load_v12, load_v14, load_call0_v1, store_call0_v1, load_call0_v0, store_call0_v0, load_cst_3]
  rfl

/-! ## After the opening stretch: the edges' endpoints and weights; the arguments as launched -/

theorem at3_src : W3 m ρ c (Proc.devRef .tc main_v3) = (Cert.Gcn.src (m ((c : Thread nD τ).loc main_arg1))) := by
  show StableHlo.after hostOps0_2 (W2 m ρ c) (Proc.devRef .tc main_v3) = _
  rw [W2_eq]
  read_fold
  exact inv_src m ρ c
theorem at3_dst : W3 m ρ c (Proc.devRef .tc main_v6) = (Cert.Gcn.dst (m ((c : Thread nD τ).loc main_arg1))) := by
  show StableHlo.after hostOps0_2 (W2 m ρ c) (Proc.devRef .tc main_v6) = _
  rw [W2_eq]
  read_fold
  exact inv_dst m ρ c
theorem at3_norm : W3 m ρ c (Proc.devRef .tc main_v30) = (Cert.Gcn.norm (Cert.Gcn.src (m ((c : Thread nD τ).loc main_arg1))) (Cert.Gcn.dst (m ((c : Thread nD τ).loc main_arg1)))) := by
  show StableHlo.after hostOps0_2 (W2 m ρ c) (Proc.devRef .tc main_v30) = _
  rw [W2_eq]
  read_fold
  rw [inv_dinv, inv_src, inv_dst]
  rfl
theorem at3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  read_fold
theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  read_fold
theorem at3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  read_fold
theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  read_fold
theorem at3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  read_fold
theorem at3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  read_fold

/-! ## After the first kernel: the first product -/

theorem at4_prod : W4 m ρ c (Proc.devRef .tc main_v31) = (Cert.Gcn.prod1 (m ((c : Thread nD τ).loc main_arg0)) (m ((c : Thread nD τ).loc main_arg3))) := by
  refine (W4_arr m ρ c 2).trans ((Cert.KernelIdeal.ProductOne.final (V3 m ρ) c).trans ?_)
  show Cert.KernelIdeal.ProductOne.whole (W3 m ρ c (Proc.devRef .tc main_arg0)) (W3 m ρ c (Proc.devRef .tc main_arg3)) = _
  rw [at3_arg0, at3_arg3]
  rfl
theorem at4_src : W4 m ρ c (Proc.devRef .tc main_v3) = (Cert.Gcn.src (m ((c : Thread nD τ).loc main_arg1))) := (W4_of_ne m ρ c main_v3 (by decide)).trans (at3_src m ρ c)
theorem at4_dst : W4 m ρ c (Proc.devRef .tc main_v6) = (Cert.Gcn.dst (m ((c : Thread nD τ).loc main_arg1))) := (W4_of_ne m ρ c main_v6 (by decide)).trans (at3_dst m ρ c)
theorem at4_norm : W4 m ρ c (Proc.devRef .tc main_v30) = (Cert.Gcn.norm (Cert.Gcn.src (m ((c : Thread nD τ).loc main_arg1))) (Cert.Gcn.dst (m ((c : Thread nD τ).loc main_arg1)))) := (W4_of_ne m ρ c main_v30 (by decide)).trans (at3_norm m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)

/-! ## After the second stretch: the aggregated first product and the first bias row -/

theorem at5_agg : W5 m ρ c (Proc.devRef .tc main_v44) = (Cert.Gcn.agg128 (Cert.Gcn.prod1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) := by
  show StableHlo.after hostOps1 (W4 m ρ c) (Proc.devRef .tc main_v44) = _
  read_fold
  rw [at4_prod, at4_src, at4_dst, at4_norm]
  rfl
theorem at5_row : W5 m ρ c (Proc.devRef .tc main_v45) = shapeCast S1x128 (m ((c : Thread nD τ).loc main_arg4)) shapeCasts_S128_S1x128 := by
  show StableHlo.after hostOps1 (W4 m ρ c) (Proc.devRef .tc main_v45) = _
  read_fold
  rw [at4_arg4]
  rfl
theorem at5_src : W5 m ρ c (Proc.devRef .tc main_v3) = (Cert.Gcn.src (m ((c : Thread nD τ).loc main_arg1))) := by
  show StableHlo.after hostOps1 (W4 m ρ c) (Proc.devRef .tc main_v3) = _
  read_fold
  exact at4_src m ρ c
theorem at5_dst : W5 m ρ c (Proc.devRef .tc main_v6) = (Cert.Gcn.dst (m ((c : Thread nD τ).loc main_arg1))) := by
  show StableHlo.after hostOps1 (W4 m ρ c) (Proc.devRef .tc main_v6) = _
  read_fold
  exact at4_dst m ρ c
theorem at5_norm : W5 m ρ c (Proc.devRef .tc main_v30) = (Cert.Gcn.norm (Cert.Gcn.src (m ((c : Thread nD τ).loc main_arg1))) (Cert.Gcn.dst (m ((c : Thread nD τ).loc main_arg1)))) := by
  show StableHlo.after hostOps1 (W4 m ρ c) (Proc.devRef .tc main_v30) = _
  read_fold
  exact at4_norm m ρ c
theorem at5_arg2 : W5 m ρ c (Proc.devRef .tc main_arg2) = (m ((c : Thread nD τ).loc main_arg2)) := by
  show StableHlo.after hostOps1 (W4 m ρ c) (Proc.devRef .tc main_arg2) = _
  read_fold
  exact at4_arg2 m ρ c
theorem at5_arg5 : W5 m ρ c (Proc.devRef .tc main_arg5) = (m ((c : Thread nD τ).loc main_arg5)) := by
  show StableHlo.after hostOps1 (W4 m ρ c) (Proc.devRef .tc main_arg5) = _
  read_fold
  exact at4_arg5 m ρ c
theorem at5_arg6 : W5 m ρ c (Proc.devRef .tc main_arg6) = (m ((c : Thread nD τ).loc main_arg6)) := by
  show StableHlo.after hostOps1 (W4 m ρ c) (Proc.devRef .tc main_arg6) = _
  read_fold
  exact at4_arg6 m ρ c

/-! ## After the second kernel: the rectified hidden features -/

theorem at6_hidden : W6 m ρ c (Proc.devRef .tc main_v46) = (Cert.Gcn.biasRelu (Cert.Gcn.agg128 (Cert.Gcn.prod1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) (m ((c : Thread nD τ).loc main_arg4))) := by
  refine (W6_arr m ρ c 2).trans ((Cert.KernelIdeal.BiasReluTile.final (V5 m ρ) c).trans ?_)
  show Cert.KernelIdeal.BiasReluTile.whole (W5 m ρ c (Proc.devRef .tc main_v44)) (W5 m ρ c (Proc.devRef .tc main_v45)) = _
  rw [at5_agg, at5_row]
  exact Cert.KernelIdeal.BiasReluTile.whole_eq_host _ _ _ _ _ _
theorem at6_src : W6 m ρ c (Proc.devRef .tc main_v3) = (Cert.Gcn.src (m ((c : Thread nD τ).loc main_arg1))) := (W6_of_ne m ρ c main_v3 (by decide)).trans (at5_src m ρ c)
theorem at6_dst : W6 m ρ c (Proc.devRef .tc main_v6) = (Cert.Gcn.dst (m ((c : Thread nD τ).loc main_arg1))) := (W6_of_ne m ρ c main_v6 (by decide)).trans (at5_dst m ρ c)
theorem at6_norm : W6 m ρ c (Proc.devRef .tc main_v30) = (Cert.Gcn.norm (Cert.Gcn.src (m ((c : Thread nD τ).loc main_arg1))) (Cert.Gcn.dst (m ((c : Thread nD τ).loc main_arg1)))) := (W6_of_ne m ρ c main_v30 (by decide)).trans (at5_norm m ρ c)
theorem at6_arg2 : W6 m ρ c (Proc.devRef .tc main_arg2) = (m ((c : Thread nD τ).loc main_arg2)) := (W6_of_ne m ρ c main_arg2 (by decide)).trans (at5_arg2 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)

/-! ## After the third kernel: the second product -/

theorem at7_prod : W7 m ρ c (Proc.devRef .tc main_v47) = (Cert.Gcn.prod2 (Cert.Gcn.biasRelu (Cert.Gcn.agg128 (Cert.Gcn.prod1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) (m ((c : Thread nD τ).loc main_arg4))) (m ((c : Thread nD τ).loc main_arg5))) := by
  refine (W7_arr m ρ c 2).trans ((Cert.KernelIdeal.ProductTwo.final (V6 m ρ) c).trans ?_)
  show Cert.KernelIdeal.ProductTwo.whole (W6 m ρ c (Proc.devRef .tc main_v46)) (W6 m ρ c (Proc.devRef .tc main_arg5)) = _
  rw [at6_hidden, at6_arg5]
  rfl
theorem at7_src : W7 m ρ c (Proc.devRef .tc main_v3) = (Cert.Gcn.src (m ((c : Thread nD τ).loc main_arg1))) := (W7_of_ne m ρ c main_v3 (by decide)).trans (at6_src m ρ c)
theorem at7_dst : W7 m ρ c (Proc.devRef .tc main_v6) = (Cert.Gcn.dst (m ((c : Thread nD τ).loc main_arg1))) := (W7_of_ne m ρ c main_v6 (by decide)).trans (at6_dst m ρ c)
theorem at7_norm : W7 m ρ c (Proc.devRef .tc main_v30) = (Cert.Gcn.norm (Cert.Gcn.src (m ((c : Thread nD τ).loc main_arg1))) (Cert.Gcn.dst (m ((c : Thread nD τ).loc main_arg1)))) := (W7_of_ne m ρ c main_v30 (by decide)).trans (at6_norm m ρ c)
theorem at7_arg2 : W7 m ρ c (Proc.devRef .tc main_arg2) = (m ((c : Thread nD τ).loc main_arg2)) := (W7_of_ne m ρ c main_arg2 (by decide)).trans (at6_arg2 m ρ c)
theorem at7_arg6 : W7 m ρ c (Proc.devRef .tc main_arg6) = (m ((c : Thread nD τ).loc main_arg6)) := (W7_of_ne m ρ c main_arg6 (by decide)).trans (at6_arg6 m ρ c)

/-! ## After the third stretch: the aggregated second product and the second bias row -/

theorem at8_agg : W8 m ρ c (Proc.devRef .tc main_v60) = (Cert.Gcn.agg64 (Cert.Gcn.prod2 (Cert.Gcn.biasRelu (Cert.Gcn.agg128 (Cert.Gcn.prod1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) (m ((c : Thread nD τ).loc main_arg4))) (m ((c : Thread nD τ).loc main_arg5))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) := by
  show StableHlo.after hostOps3 (W7 m ρ c) (Proc.devRef .tc main_v60) = _
  read_fold
  rw [at7_prod, at7_src, at7_dst, at7_norm]
  rfl
theorem at8_row : W8 m ρ c (Proc.devRef .tc main_v61) = shapeCast S1x64 (m ((c : Thread nD τ).loc main_arg6)) shapeCasts_S64_S1x64 := by
  show StableHlo.after hostOps3 (W7 m ρ c) (Proc.devRef .tc main_v61) = _
  read_fold
  rw [at7_arg6]
  rfl
theorem at8_arg2 : W8 m ρ c (Proc.devRef .tc main_arg2) = (m ((c : Thread nD τ).loc main_arg2)) := by
  show StableHlo.after hostOps3 (W7 m ρ c) (Proc.devRef .tc main_arg2) = _
  read_fold
  exact at7_arg2 m ρ c

/-! ## After the fourth kernel: the second layer's output -/

theorem at9_out : W9 m ρ c (Proc.devRef .tc main_v62) = (Cert.Gcn.bias (Cert.Gcn.agg64 (Cert.Gcn.prod2 (Cert.Gcn.biasRelu (Cert.Gcn.agg128 (Cert.Gcn.prod1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) (m ((c : Thread nD τ).loc main_arg4))) (m ((c : Thread nD τ).loc main_arg5))) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1))))) (m ((c : Thread nD τ).loc main_arg6))) := by
  refine (W9_arr m ρ c 2).trans ((Cert.KernelIdeal.BiasTile.final (V8 m ρ) c).trans ?_)
  show Cert.KernelIdeal.BiasTile.whole (W8 m ρ c (Proc.devRef .tc main_v60)) (W8 m ρ c (Proc.devRef .tc main_v61)) = _
  rw [at8_agg, at8_row]
  exact Cert.KernelIdeal.BiasTile.whole_eq_host _ _ _ _ _
theorem at9_arg2 : W9 m ρ c (Proc.devRef .tc main_arg2) = (m ((c : Thread nD τ).loc main_arg2)) := (W9_of_ne m ρ c main_arg2 (by decide)).trans (at8_arg2 m ρ c)

/-! ## At the return: the pooled result -/

/-- The result buffer at the last boundary is the network of the launch contents of the arguments. -/
theorem result : W10 m ρ c (Proc.devRef .tc main_v74)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v74) = _
  read_fold
  rw [at9_out, at9_arg2]
  rfl

end Cert.KernelIdeal.Boundaries

end
-- ==== Proof.lean ====
/-
  The certificate of a two-layer graph convolution with mean pooling: a program of four tiled kernels among host
  operations against the plain host program.

  On the extended reals the two programs compute one function of the seven inputs. Both derive the edges' endpoints
  (the edge list's rows followed by the self loops), the in-degrees, `deg ^ (-1/2)` and the edges' weights by the same
  host operations; both gather, scale and sum the transformed features over the edges by the same host operations, and
  pool by the same host operations. They differ in four places: the two matrix products, which the kernel program
  computes 5000 rows at a time, each block's entry the same sum `∑ₖ a (r, k) · w (k, q)` as the whole product's (the
  rounding of the operands to bf16 is the identity on the extended reals); and the two bias additions (the first
  followed by `max(·, 0)`), which it computes 5000 rows at a time from the bias as a row under a unit axis, entry by
  entry what the host's broadcast of the bias vector over the nodes gives. No law of arithmetic beyond reading each
  operation at an index is used, so the inputs' finiteness is never opened.
  The kernel program's frames are its generated ones; the reference's frame is its run with the result dropped; the
  idealization rewrote nothing.
-/
import proofs.«131183_j47167330844989_1_alg».proof.Defs
import proofs.«131183_j47167330844989_1_alg».proof.Proof.Gen.Kernel
import proofs.«131183_j47167330844989_1_alg».proof.Proof.Gen.Kernel.Skeleton
import proofs.«131183_j47167330844989_1_alg».proof.Proof.Gen.Kernel.Launch
import proofs.«131183_j47167330844989_1_alg».proof.Proof.Gen.Kernel.Points
import proofs.«131183_j47167330844989_1_alg».proof.Proof.Gen.Kernel.Frame
import proofs.«131183_j47167330844989_1_alg».proof.Proof.Gen.KernelIdeal
import proofs.«131183_j47167330844989_1_alg».proof.Proof.Gen.KernelIdeal.Skeleton
import proofs.«131183_j47167330844989_1_alg».proof.Proof.Gen.KernelIdeal.Launch
import proofs.«131183_j47167330844989_1_alg».proof.Proof.Gen.KernelIdeal.Points
import proofs.«131183_j47167330844989_1_alg».proof.Proof.Gen.KernelIdeal.Frame
import proofs.«131183_j47167330844989_1_alg».proof.Proof.Gen.ReferenceIdeal
import proofs.«131183_j47167330844989_1_alg».proof.Proof.Gen.Pre_finite_inputs
import proofs.«131183_j47167330844989_1_alg».proof.Proof.RefRun
import proofs.«131183_j47167330844989_1_alg».proof.Proof.ReferenceNet
import proofs.«131183_j47167330844989_1_alg».proof.Proof.WholeRun
import proofs.«131183_j47167330844989_1_alg».proof.Proof.Boundaries
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network of the arguments in their result
    buffers: the kernel program by its buffers read boundary by boundary, the reference by its run's composed term. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Boundaries.result m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.reference_result, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
